-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S2x1x4096 : Shape := ⟨3, ![2, 1, 4096]⟩
abbrev S2048x256 : Shape := ⟨2, ![2048, 256]⟩
abbrev S1024x256 : Shape := ⟨2, ![1024, 256]⟩
abbrev S2048x1 : Shape := ⟨2, ![2048, 1]⟩
abbrev S1x1x1024 : Shape := ⟨3, ![1, 1, 1024]⟩
abbrev S256x1024 : Shape := ⟨2, ![256, 1024]⟩
abbrev S2048x1024 : Shape := ⟨2, ![2048, 1024]⟩
abbrev S2048 : Shape := ⟨1, ![2048]⟩
abbrev S1024 : Shape := ⟨1, ![1024]⟩
abbrev S2x4096 : Shape := ⟨2, ![2, 4096]⟩
abbrev S8192 : Shape := ⟨1, ![8192]⟩

abbrev nBuf : Space → Nat
  | .hbm => 49
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S4096x256, .bf16⟩
  | .hbm, ⟨23, _⟩ => ⟨S4096x256, .bf16⟩
  | .hbm, ⟨24, _⟩ => ⟨S4096x1, .f32⟩
  | .hbm, ⟨25, _⟩ => ⟨S2x1x4096, .f32⟩
  | .hbm, ⟨26, _⟩ => ⟨S2x4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096x256, .f32⟩
  | .hbm, ⟨31, _⟩ => ⟨S_, .f32⟩
  | .hbm, ⟨32, _⟩ => ⟨S4096, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S2048x256, .bf16⟩
  | .local _ .vmem, ⟨1, _⟩ => ⟨S2048x256, .bf16⟩
  | .local _ .vmem, ⟨2, _⟩ => ⟨S1024x256, .bf16⟩
  | .local _ .vmem, ⟨3, _⟩ => ⟨S1024x256, .bf16⟩
  | .local _ .vmem, ⟨4, _⟩ => ⟨S2048x1, .f32⟩
  | .local _ .vmem, ⟨5, _⟩ => ⟨S2048x1, .f32⟩
  | .local _ .vmem, ⟨6, _⟩ => ⟨S1x1x1024, .f32⟩
  | .local _ .vmem, ⟨7, _⟩ => ⟨S1x1x1024, .f32⟩
  | .local _ .vmem, ⟨8, _⟩ => ⟨S2048x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  reduces_S2048x1024_S2048 : S2048x1024.Reduces [1] S2048
  shapeCasts_S2048_S2048x1 : S2048.ShapeCasts S2048x1
  reduces_S2048x1024_S1024 : S2048x1024.Reduces [0] S1024
  shapeCasts_S1024_S1x1x1024 : S1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S2x1x4096_S2x4096 : S2x1x4096.ShapeCasts S2x4096
  reducesTo_S2x4096_S4096_d0 : S2x4096.ReducesTo [0] S4096
  shapeCasts_S4096x1_S4096 : S4096x1.ShapeCasts S4096
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x256.size a
  hwx0_0 : ∀ i : grid0.Coords, EltTy.bits .bf16 = 32 ∨ (Rect.block (s := S4096x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .bf16 = 32 ∨ (Rect.block (s := S4096x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S2x1x4096.size a
  hwx0_3 : ∀ i : grid0.Coords, EltTy.bits .f32 = 32 ∨ (Rect.block (s := S2x1x4096) S1x1x1024.size (cc0_transform_3 i) (hinb0_3 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_v10) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12_0) S2048x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩

abbrev nBuf : Space → Nat
  | .hbm => 65
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S256x8192, .f32⟩
  | .hbm, ⟨24, _⟩ => ⟨S8192x8192, .f32⟩
  | .hbm, ⟨25, _⟩ => ⟨S4096x256, .f32⟩
  | .hbm, ⟨26, _⟩ => ⟨S_, .f32⟩
  | .hbm, ⟨27, _⟩ => ⟨S4096, .f32⟩
  | .hbm, ⟨28, _⟩ => ⟨S8192, .f32⟩
  | .hbm, ⟨29, _⟩ => ⟨S8192, .i32⟩
  | .hbm, ⟨30, _⟩ => ⟨S8192x1, .i32⟩
  | .hbm, ⟨31, _⟩ => ⟨S_, .i32⟩
  | .hbm, ⟨32, _⟩ => ⟨S8192x1, .i32⟩
  | .hbm, ⟨33, _⟩ => ⟨S8192x1, .i1⟩
  | .hbm, ⟨34, _⟩ => ⟨S1x8192, .i32⟩
  | .hbm, ⟨35, _⟩ => ⟨S_, .i32⟩
  | .hbm, ⟨36, _⟩ => ⟨S1x8192, .i32⟩
  | .hbm, ⟨37, _⟩ => ⟨S1x8192, .i1⟩
  | .hbm, ⟨38, _⟩ => ⟨S8192x8192, .i1⟩
  | .hbm, ⟨39, _⟩ => ⟨S8192x8192, .i1⟩
  | .hbm, ⟨40, _⟩ => ⟨S8192x8192, .i1⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_call2_v0 : Ref sig .tc := ⟨.hbm, 50, rfl⟩
abbrev main_call2_v1 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  concatenates_S4096_S4096_S8192_d0 : Shape.Concatenates [S4096, S4096] S8192 0
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.CaseValues.lean ====
/-
  What the body leaves behind in each of its three control cases, as values.

  At the first column block the accumulator is reset to zero and then receives the block's row sums; at a later
  column block it receives them on top of what the point before left; at the last column block it is, in
  addition, copied to the row-sum output. In every case the column-sum output receives the block's column sums.
  Each buffer is written by whole-block stores, so its final contents are the payload of the last store.
-/
import proofs.«177707_j64518998721097_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.CaseValues

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later column block, not the last: the accumulator holds the point before's contents plus the row sums. -/
theorem acc_B (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S1x1x1024 .f32) (harg5 : arg5.IsWhole) (arg6 : Memref sig .tc .vmem S2048x1 .f32) (harg6 : arg6.IsWhole) (hc0 : ¬cond0_0 i) (hc1 : ¬cond0_1 i)
    (x0 : Vec F S2048x256 .bf16) (x1 : Vec F S1024x256 .bf16) (xs0 : Vec F S2048x1 .f32) :
    sout0_B_0 c i arg2 harg2 arg3 harg3 arg4 harg4 arg5 harg5 arg6 harg6 hc0 hc1 x0 x1 xs0 = k0_pay3 x0 x1 xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  rw [View.canon_unit_zero hz2]
  simp only [View.readAt_eq_ld, harg2.read_unread, harg3.read_unread, harg6.read_unread, View.ld_unit_zero (S := S2048x256) hz2, View.ld_unit_zero (S := S1024x256) hz2, View.ld_unit_zero (S := S2048x1) hz2]

/-- The last column block: the accumulator again holds the point before's contents plus the row sums … -/
theorem acc_C (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S1x1x1024 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S1024x256 .bf16) (xs0 : Vec F S2048x1 .f32) :
    sout0_C_0 c i arg2 harg2 arg3 harg3 arg4 harg4 arg5 harg5 arg6 harg6 hc0 hc1 x0 x1 xs0 = k0_pay3 x0 x1 xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero (S := S2048x1) hz2]
  simp only [View.readAt_eq_ld, harg2.read_unread, harg3.read_unread, harg6.read_unread, View.ld_unit_zero (S := S2048x256) hz2, View.ld_unit_zero (S := S1024x256) hz2, View.ld_unit_zero (S := S2048x1) hz2]

/-- … and the row-sum output receives a copy of it. -/
theorem rows_C (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S1x1x1024 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S1024x256 .bf16) (xs0 : Vec F S2048x1 .f32) :
    out0_C_2 c i arg2 harg2 arg3 harg3 arg4 harg4 arg5 harg5 arg6 harg6 hc0 hc1 x0 x1 xs0 = k0_pay3 x0 x1 xs0 := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero (S := S2048x1) hz2, View.readCov_unit_zero (S := S2048x1) _ hz2]
  simp only [View.readAt_eq_ld, harg2.read_unread, harg3.read_unread, harg6.read_unread, View.ld_unit_zero (S := S2048x256) hz2, View.ld_unit_zero (S := S1024x256) hz2, View.ld_unit_zero (S := S2048x1) hz2]

/-- The first column block: the accumulator is reset to zero and then receives the row sums. -/
theorem acc_A (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S1x1x1024 .f32) (harg5 : arg5.IsWhole) (arg6 : Memref sig .tc .vmem S2048x1 .f32) (harg6 : arg6.IsWhole) (hc0 : cond0_0 i) (hc1 : ¬cond0_1 i)
    (x0 : Vec F S2048x256 .bf16) (x1 : Vec F S1024x256 .bf16) :
    sout0_A_0 c i arg2 harg2 arg3 harg3 arg4 harg4 arg5 harg5 arg6 harg6 hc0 hc1 x0 x1 = k0_pay3 x0 x1 k0_pay1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S2048x1) hz2, View.readCov_unit_zero (S := S2048x1) _ hz2]
  simp only [View.readAt_eq_ld, harg2.read_unread, harg3.read_unread, View.ld_unit_zero (S := S2048x256) hz2, View.ld_unit_zero (S := S1024x256) hz2]

/-- In every case the column-sum output receives the block's column sums: first column block … -/
theorem cols_A (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S1x1x1024 .f32) (harg5 : arg5.IsWhole) (arg6 : Memref sig .tc .vmem S2048x1 .f32) (harg6 : arg6.IsWhole) (hc0 : cond0_0 i) (hc1 : ¬cond0_1 i)
    (x0 : Vec F S2048x256 .bf16) (x1 : Vec F S1024x256 .bf16) :
    out0_A_3 c i arg2 harg2 arg3 harg3 arg4 harg4 arg5 harg5 arg6 harg6 hc0 hc1 x0 x1 = k0_pay4 x0 x1 := by
  unfold out0_A_3
  rw [View.read_writes_eq_canon _ _ _ (cover0_A_3 c i arg2 harg2 arg3 harg3 arg4 harg4 arg5 harg5 arg6 harg6 hc0 hc1 x0 x1)]
  unfold kernelRun0_A
  dsimp only
  rw [View.canon_unit_zero hz3]
  simp only [View.readAt_eq_ld, harg2.read_unread, harg3.read_unread, View.ld_unit_zero (S := S2048x256) hz2, View.ld_unit_zero (S := S1024x256) hz2]

/-- … a later column block. -/
theorem cols_B (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S1x1x1024 .f32) (harg5 : arg5.IsWhole) (arg6 : Memref sig .tc .vmem S2048x1 .f32) (harg6 : arg6.IsWhole) (hc0 : ¬cond0_0 i) (hc1 : ¬cond0_1 i)
    (x0 : Vec F S2048x256 .bf16) (x1 : Vec F S1024x256 .bf16) (xs0 : Vec F S2048x1 .f32) :
    out0_B_3 c i arg2 harg2 arg3 harg3 arg4 harg4 arg5 harg5 arg6 harg6 hc0 hc1 x0 x1 xs0 = k0_pay4 x0 x1 := by
  unfold out0_B_3
  rw [View.read_writes_eq_canon _ _ _ (cover0_B_3 c i arg2 harg2 arg3 harg3 arg4 harg4 arg5 harg5 arg6 harg6 hc0 hc1 x0 x1 xs0)]
  unfold kernelRun0_B
  dsimp only
  sl_unfold_words
  rw [View.canon_unit_zero (S := S1x1x1024) hz3]
  simp only [View.readAt_eq_ld, harg2.read_unread, harg3.read_unread, View.ld_unit_zero (S := S2048x256) hz2, View.ld_unit_zero (S := S1024x256) hz2]

/-- … the last column block. -/
theorem cols_C (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S1x1x1024 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S1024x256 .bf16) (xs0 : Vec F S2048x1 .f32) :
    out0_C_3 c i arg2 harg2 arg3 harg3 arg4 harg4 arg5 harg5 arg6 harg6 hc0 hc1 x0 x1 xs0 = k0_pay4 x0 x1 := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero (S := S1x1x1024) hz3]
  simp only [View.readAt_eq_ld, harg2.read_unread, harg3.read_unread, View.ld_unit_zero (S := S2048x256) hz2, View.ld_unit_zero (S := S1024x256) hz2]

end Cert.CaseValues

end
-- ==== Proof.PointByPoint.lean ====
/-
  What the carried accumulator and the two outputs hold after each grid point, as the body's payloads.

  The grid runs through two row blocks, each against four column blocks in turn. After a point the column output
  holds the point's column sums; the accumulator holds the point's row sums on top of zero at the first column
  block of a row block, and on top of what the point before left otherwise; and at the last column block the
  row-sum output holds what the accumulator holds.
-/
import proofs.«177707_j64518998721097_2_alg».proof.Proof.Gen.KernelIdeal.Frame
import proofs.«177707_j64518998721097_2_alg».proof.Proof.CaseValues

noncomputable section

open Idealize.ShloMosaic Idealize.ShloMosaic.TcCoe Idealize.SL.Sem

namespace Cert.PointByPoint

open Cert.KernelIdeal Cert.KernelIdeal.Gen Cert.CaseValues

variable {F : FTy → Type} [FloatOps F]
variable (m : (ℓ : Loc nD τ sig) → Buf (Elt F) ℓ)

/-- After every point the column output holds the point's column sums. -/
theorem cols_at (c : Dev nD) (t : Fin cfg0.N) :
    (outsAt0 m c t.val t.isLt).2.1 = k0_pay4 (iblk m c 0 t) (iblk m c 1 t) := by
  by_cases h0 : t.val % 4 = 0
  · have h1 : ¬t.val % 4 = 3 := by omega
    rw [outsAt0_A m c t h0 h1]
    dsimp only
    exact cols_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · by_cases h1 : t.val % 4 = 3
    · rw [outsAt0_C m c t h0 h1]
      dsimp only
      exact cols_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
    · rw [outsAt0_B m c t h0 h1]
      dsimp only
      exact cols_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- At the first column block of a row block the accumulator holds the point's row sums on top of zero. -/
theorem acc_first (c : Dev nD) (t : Fin cfg0.N) (h0 : t.val % 4 = 0) :
    (outsAt0 m c t.val t.isLt).2.2 = k0_pay3 (iblk m c 0 t) (iblk m c 1 t) k0_pay1 := by
  have h1 : ¬t.val % 4 = 3 := by omega
  rw [outsAt0_A m c t h0 h1]
  dsimp only
  exact acc_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)

/-- At a later column block it holds them on top of what the point before left. -/
theorem acc_later (c : Dev nD) (t : Fin cfg0.N) (h0 : ¬t.val % 4 = 0) :
    (outsAt0 m c t.val t.isLt).2.2
      = k0_pay3 (iblk m c 0 t) (iblk m c 1 t) (outsAt0 m c (t.val - 1) (Nat.lt_of_le_of_lt (Nat.sub_le _ _) t.isLt)).2.2 := by
  by_cases h1 : t.val % 4 = 3
  · rw [outsAt0_C m c t h0 h1]
    dsimp only
    exact acc_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
  · rw [outsAt0_B m c t h0 h1]
    dsimp only
    exact acc_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- At the last column block the row-sum output holds what the accumulator holds. -/
theorem rows_last (c : Dev nD) (t : Fin cfg0.N) (h1 : t.val % 4 = 3) :
    (outsAt0 m c t.val t.isLt).1 = (outsAt0 m c t.val t.isLt).2.2 := by
  have h0 : ¬t.val % 4 = 0 := by omega
  rw [outsAt0_C m c t h0 h1]
  dsimp only
  exact (rows_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).trans
    (acc_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).symm

end Cert.PointByPoint

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.PointValues.lean ====
/-
  What one grid point computes, read at an index over the extended reals.

  A grid point holds a block `x0 : [2048, 256]` of rows of the first array and a block `x1 : [1024, 256]` of rows of
  the second. Its body forms the [2048, 1024] block of weights `exp ((x0 p · x1 q) · 2)` (one matrix product with the
  second block transposed, into a zero accumulator), adds each row's sum over the 1024 columns to a carried
  [2048, 1] accumulator, and writes each column's sum over the 2048 rows to a [1, 1, 1024] block.
-/
import proofs.«177707_j64518998721097_2_alg».proof.Proof.Gen.KernelIdeal.Skeleton
import proofs.«177707_j64518998721097_2_alg».proof.Proof.LibPlainProduct
import proofs.«177707_j64518998721097_2_alg».proof.Proof.LibBroadcast
import Idealize.ShloMosaic.Lib.ValueIdx
import Idealize.ShloMosaic.Lib.Pipeline.Value
import Idealize.ShloMosaic.PureOps.Ideal.Laws

noncomputable section

namespace Cert.PointValues

open Idealize.ShloMosaic Idealize.ShloMosaic.ValueIdx Cert.KernelIdeal Cert.KernelIdeal.Gen

/-- The weight of row `p` of the first block against row `q` of the second. -/
def blockWeight (x0 : FVec Ideal S2048x256 .bf16) (x1 : FVec Ideal S1024x256 .bf16) (p : Fin 2048) (q : Fin 1024) : EReal :=
  Ideal.exp ((∑ d : Fin 256, x0 (ix2 p d) * x1 (ix2 q d)) * Ideal.ofBits .f32 0x40000000#32)

/-- The block of weights at `(p, q)`: the product's entry is the dot product of row `p` of the first block with
    row `q` of the second (the transpose turns the second block's rows into the product's columns). -/
theorem weights_apply (x0 : FVec Ideal S2048x256 .bf16) (x1 : FVec Ideal S1024x256 .bf16) (p : Fin 2048) (q : Fin 1024) :
    k0_pay2 (F := Ideal) x0 x1 (ix2 p q) = blockWeight x0 x1 p q := by
  unfold k0_pay2 blockWeight
  show Ideal.exp (FloatOps.matmul dot_S2048x256_S256x1024_S2048x1024_1_0_0_1_n_n none
      (shapeCast S2048x256 x0 shapeCasts_S2048x256_S2048x256)
      (transpose S256x1024 [1, 0] (shapeCast S1024x256 x1 shapeCasts_S1024x256_S1024x256) transposes_S1024x256_p1_0_S256x1024)
      (constant S2048x1024 .f32 0x00000000#32) (ix2 p q) * Ideal.ofBits .f32 0x40000000#32) = _
  refine congrArg (fun s => Ideal.exp (s * Ideal.ofBits .f32 0x40000000#32)) ?_
  refine (Cert.PlainProduct.matmul_nn_apply dot_S2048x256_S256x1024_S2048x1024_1_0_0_1_n_n_wf none _ _ p q).trans ?_
  refine Finset.sum_congr rfl fun d _ => ?_
  have e0 : shapeCast S2048x256 x0 shapeCasts_S2048x256_S2048x256 (ix2 p d) = x0 (ix2 p d) :=
    congrFun (shapeCast_self x0 shapeCasts_S2048x256_S2048x256) (ix2 p d)
  have e1 : transpose S256x1024 [1, 0] (shapeCast S1024x256 x1 shapeCasts_S1024x256_S1024x256) transposes_S1024x256_p1_0_S256x1024 (ix2 d q)
      = x1 (ix2 q d) :=
    (transpose_apply [1, 0] _ transposes_S1024x256_p1_0_S256x1024 (ix2 d q) (ix2 q d)
      (fun b => match b with | ⟨0, _⟩ => rfl | ⟨1, _⟩ => rfl)).trans
      (congrFun (shapeCast_self x1 shapeCasts_S1024x256_S1024x256) (ix2 q d))
  exact e0 ▸ e1 ▸ rfl

/-- Putting column `k` back beside row `p` gives the entry `(p, k)`. -/
theorem lift_row (p : Fin 2048) (k : Fin (S2048x1024.size 1)) :
    reduces_S2048x1024_S2048.lift (ix1 p) k = ix2 p (⟨k.val, k.isLt⟩ : Fin 1024) := by
  funext c; apply Fin.ext
  fin_cases c <;> rfl

/-- Putting row `k` back above column `q` gives the entry `(k, q)`. -/
theorem lift_col (q : Fin 1024) (k : Fin (S2048x1024.size 0)) :
    reduces_S2048x1024_S1024.lift (ix1 q) k = ix2 (⟨k.val, k.isLt⟩ : Fin 2048) q := by
  funext c; apply Fin.ext
  fin_cases c <;> rfl

/-- The new accumulator at row `p`: the old one plus the sum of the row's weights over the block's 1024 columns. -/
theorem rowSums_apply (x0 : FVec Ideal S2048x256 .bf16) (x1 : FVec Ideal S1024x256 .bf16) (acc : FVec Ideal S2048x1 .f32)
    (p : Fin 2048) :
    k0_pay3 (F := Ideal) x0 x1 acc (ix2 p (0 : Fin 1)) = acc (ix2 p (0 : Fin 1)) + ∑ q : Fin 1024, blockWeight x0 x1 p q := by
  unfold k0_pay3
  refine (congrFun (shapeCast_self _ shapeCasts_S2048x1_S2048x1) (ix2 p (0 : Fin 1))).trans ?_
  show acc (ix2 p (0 : Fin 1)) + shapeCast S2048x1 (multiReduction .add [1] S2048 (k0_pay2 (F := Ideal) x0 x1) 0x00000000#32
      reduces_S2048x1024_S2048 (.inl rfl) rfl) shapeCasts_S2048_S2048x1 (ix2 p (0 : Fin 1)) = _
  refine congrArg (acc (ix2 p (0 : Fin 1)) + ·) ?_
  refine (Cert.Layout.shapeCast_col_apply _ shapeCasts_S2048_S2048x1 p).trans ?_
  refine (Ideal.multiReduction_add_single (k0_pay2 (F := Ideal) x0 x1) 0x00000000#32 reduces_S2048x1024_S2048 (.inl rfl) rfl (ix1 p)).trans ?_
  show ∑ k : Fin 1024, k0_pay2 (F := Ideal) x0 x1 (reduces_S2048x1024_S2048.lift (ix1 p) k) = _
  refine Finset.sum_congr rfl fun k _ => ?_
  exact (congrArg (k0_pay2 (F := Ideal) x0 x1) (lift_row p k)).trans (weights_apply x0 x1 p k)

/-- The column block at `q`: the sum of the column's weights over the block's 2048 rows. -/
theorem colSums_apply (x0 : FVec Ideal S2048x256 .bf16) (x1 : FVec Ideal S1024x256 .bf16) (q : Fin 1024) :
    k0_pay4 (F := Ideal) x0 x1 (ix3 (0 : Fin 1) (0 : Fin 1) q) = ∑ p : Fin 2048, blockWeight x0 x1 p q := by
  unfold k0_pay4
  refine (shapeCast_apply _ shapeCasts_S1024_S1x1x1024 (ix3 (0 : Fin 1) (0 : Fin 1) q) (ix1 q) ?_).trans ?_
  · rw [Shape.rowMajor_val_one, Shape.rowMajor_val_three]
    show q.val = (0 * 1 + 0) * 1024 + q.val
    omega
  refine (Ideal.multiReduction_add_single (k0_pay2 (F := Ideal) x0 x1) 0x00000000#32 reduces_S2048x1024_S1024 (.inl rfl) rfl (ix1 q)).trans ?_
  show ∑ k : Fin 2048, k0_pay2 (F := Ideal) x0 x1 (reduces_S2048x1024_S1024.lift (ix1 q) k) = _
  refine Finset.sum_congr rfl fun k _ => ?_
  exact (congrArg (k0_pay2 (F := Ideal) x0 x1) (lift_col q k)).trans (weights_apply x0 x1 k q)

/-- The value the accumulator is reset to at the first column block is zero everywhere. -/
theorem zeros_apply (i : S2048x1.Idx) : k0_pay1 (F := Ideal) i = 0 := by
  unfold k0_pay1
  refine (congrFun (shapeCast_self _ shapeCasts_S2048x1_S2048x1) i).trans ?_
  show Ideal.ofBits .f32 0x00000000#32 = 0
  exact Ideal.ofBits_zero_f32

end Cert.PointValues

end
-- ==== Proof.CrossSums.lean ====
/-
  The two denominators of the contrastive loss, as functions of the two arrays of unit rows.

  For arrays `a, b : [4096, 256]` the similarity of row `p` of `a` and row `q` of `b` is their dot product, its
  weight is `exp (similarity · 2)` (the temperature is 1/2), and the loss divides by two sums of weights: along a
  row of the weight matrix for an entry of the first view, along a column for an entry of the second. The vector
  of all 8192 denominators lists the 4096 row sums and then the 4096 column sums. Everything is over the extended
  reals; only that `+` and `·` are commutative and associative there is ever used.
-/
import Idealize.ShloMosaic.PureOps.Ideal
import Idealize.ShloMosaic.Lib.ValueIdx

noncomputable section

namespace Cert.CrossSums

open Idealize.ShloMosaic Idealize.ShloMosaic.ValueIdx

/-- The dot product of row `p` of `a` with row `q` of `b`. -/
def sim (a b : (⟨2, ![4096, 256]⟩ : Shape).Idx → EReal) (p q : Fin 4096) : EReal :=
  ∑ d : Fin 256, a (ix2 p d) * b (ix2 q d)

/-- The weight of the pair `(p, q)`: the exponential of the similarity over the temperature 1/2. -/
def weight (a b : (⟨2, ![4096, 256]⟩ : Shape).Idx → EReal) (p q : Fin 4096) : EReal :=
  Ideal.exp (sim a b p q * Ideal.ofBits .f32 0x40000000#32)

/-- The sum of the weights of row `p` against every row of `b`. -/
def rowDen (a b : (⟨2, ![4096, 256]⟩ : Shape).Idx → EReal) (p : Fin 4096) : EReal :=
  ∑ q : Fin 4096, weight a b p q

/-- The sum of the weights of every row of `a` against row `q` of `b`. -/
def colDen (a b : (⟨2, ![4096, 256]⟩ : Shape).Idx → EReal) (q : Fin 4096) : EReal :=
  ∑ p : Fin 4096, weight a b p q

/-- All 8192 denominators: entry `i` is the row sum `i` below 4096 and the column sum `i - 4096` from there on
    (in both halves the row or column is `i` modulo 4096). -/
def den (a b : (⟨2, ![4096, 256]⟩ : Shape).Idx → EReal) : (⟨1, ![8192]⟩ : Shape).Idx → EReal := fun i =>
  if (i 0).val < 4096 then rowDen a b ⟨(i 0).val % 4096, Nat.mod_lt _ (by norm_num)⟩
  else colDen a b ⟨(i 0).val % 4096, Nat.mod_lt _ (by norm_num)⟩

/-- Below 4096 the denominator is the row sum. -/
theorem den_low (a b : (⟨2, ![4096, 256]⟩ : Shape).Idx → EReal) (i : (⟨1, ![8192]⟩ : Shape).Idx) (p : Fin 4096)
    (hp : (i 0).val = p.val) : den a b i = rowDen a b p := by
  have hlt : (i 0).val < 4096 := hp ▸ p.isLt
  have hfin : (⟨(i 0).val % 4096, Nat.mod_lt _ (by norm_num)⟩ : Fin 4096) = p :=
    Fin.ext (by show (i 0).val % 4096 = p.val; rw [Nat.mod_eq_of_lt hlt, hp])
  exact (if_pos hlt).trans (congrArg (rowDen a b) hfin)

/-- From 4096 on the denominator is the column sum. -/
theorem den_high (a b : (⟨2, ![4096, 256]⟩ : Shape).Idx → EReal) (i : (⟨1, ![8192]⟩ : Shape).Idx) (q : Fin 4096)
    (hq : (i 0).val = 4096 + q.val) : den a b i = colDen a b q := by
  have hge : ¬ (i 0).val < 4096 := by rw [hq]; omega
  have hfin : (⟨(i 0).val % 4096, Nat.mod_lt _ (by norm_num)⟩ : Fin 4096) = q :=
    Fin.ext (by
      show (i 0).val % 4096 = q.val
      rw [hq, Nat.add_mod_left, Nat.mod_eq_of_lt q.isLt])
  exact (if_neg hge).trans (congrArg (colDen a b) hfin)

end Cert.CrossSums

end
-- ==== Proof.LibPartialSums.lean ====
/-
  Sums over an initial stretch of an index range, in a commutative additive monoid.

  A family indexed by the first `n` naturals is continued by zero beyond `n`; then the sum over the first `a + b`
  naturals is the sum over the first `a` plus the sum of the next `b`, the sum over none is zero, and the sum
  over all `n` is the sum of the family. An accumulation block by block is read through these three facts.
-/
import Mathlib.Algebra.BigOperators.Fin
import Mathlib.Algebra.BigOperators.Group.Finset.Basic

namespace Cert.PartialSums

variable {M : Type} [AddCommMonoid M]

/-- A family on the first `n` naturals, continued by zero. -/
def padded {n : ℕ} (f : Fin n → M) (k : ℕ) : M := if h : k < n then f ⟨k, h⟩ else 0

theorem padded_of_lt {n : ℕ} (f : Fin n → M) (k : ℕ) (h : k < n) : padded f k = f ⟨k, h⟩ := dif_pos h

/-- Over all `n` naturals the continued family sums to the family's sum. -/
theorem sum_all {n : ℕ} (f : Fin n → M) : ∑ k ∈ Finset.range n, padded f k = ∑ k : Fin n, f k := by
  rw [Finset.sum_range]
  exact Finset.sum_congr rfl fun k _ => padded_of_lt f k.val k.isLt

/-- The first `a + b` terms are the first `a` and then the next `b`. -/
theorem sum_next (g : ℕ → M) (a b : ℕ) :
    ∑ k ∈ Finset.range (a + b), g k = ∑ k ∈ Finset.range a, g k + ∑ q : Fin b, g (a + q.val) := by
  rw [Finset.sum_range_add]
  exact congrArg (∑ k ∈ Finset.range a, g k + ·) (Finset.sum_range fun x => g (a + x))

/-- A family on `a + a` indices sums to its first half plus its second half. -/
theorem sum_halves {a : ℕ} (f : Fin (a + a) → M) :
    ∑ k : Fin (a + a), f k
      = ∑ k : Fin a, f ⟨k.val, by have := k.isLt; omega⟩ + ∑ k : Fin a, f ⟨a + k.val, by have := k.isLt; omega⟩ :=
  Fin.sum_univ_add f

end Cert.PartialSums
-- ==== Proof.ArrayWeights.lean ====
/-
  A grid point's weights are the arrays' weights.

  If a point's first block is rows `2048·ib …` of the array `a` and its second block rows `1024·jb …` of the array
  `b`, then the weight of the block's rows `(p, q)` is the arrays' weight of rows `(2048·ib + p, 1024·jb + q)`.
  So the point adds to the accumulator's row `p` the arrays' weights over 1024 consecutive columns, and writes to
  its column block the arrays' weights summed over 2048 consecutive rows. The arrays' weight is continued by zero
  outside the arrays, so that partial sums can run over plain ranges of naturals.
-/
import proofs.«177707_j64518998721097_2_alg».proof.Proof.PointValues
import proofs.«177707_j64518998721097_2_alg».proof.Proof.CrossSums
import proofs.«177707_j64518998721097_2_alg».proof.Proof.LibPartialSums

noncomputable section

namespace Cert.ArrayWeights

open Idealize.ShloMosaic Idealize.ShloMosaic.ValueIdx Cert.KernelIdeal Cert.KernelIdeal.Gen Cert.PointValues Cert.CrossSums

/-- The weight of rows `(P, Q)` of the two arrays, zero when either is not a row. -/
def wN (a b : (⟨2, ![4096, 256]⟩ : Shape).Idx → EReal) (P Q : ℕ) : EReal :=
  if h : P < 4096 ∧ Q < 4096 then weight a b ⟨P, h.1⟩ ⟨Q, h.2⟩ else 0

theorem wN_of_lt (a b : (⟨2, ![4096, 256]⟩ : Shape).Idx → EReal) (P Q : ℕ) (hP : P < 4096) (hQ : Q < 4096) :
    wN a b P Q = weight a b ⟨P, hP⟩ ⟨Q, hQ⟩ := dif_pos ⟨hP, hQ⟩

/-- The block's weight is the arrays' weight at the rows the blocks hold. -/
theorem blockWeight_eq (a b : (⟨2, ![4096, 256]⟩ : Shape).Idx → EReal)
    (x0 : FVec Ideal S2048x256 .bf16) (x1 : FVec Ideal S1024x256 .bf16) (ib jb : ℕ) (hib : ib < 2) (hjb : jb < 4)
    (h0 : ∀ (p : Fin 2048) (d : Fin 256), x0 (ix2 p d) = a (ix2 (⟨2048 * ib + p.val, by omega⟩ : Fin 4096) d))
    (h1 : ∀ (q : Fin 1024) (d : Fin 256), x1 (ix2 q d) = b (ix2 (⟨1024 * jb + q.val, by omega⟩ : Fin 4096) d))
    (p : Fin 2048) (q : Fin 1024) :
    blockWeight x0 x1 p q = wN a b (2048 * ib + p.val) (1024 * jb + q.val) := by
  rw [wN_of_lt a b _ _ (by omega) (by omega)]
  unfold blockWeight weight sim
  refine congrArg (fun s => Ideal.exp (s * Ideal.ofBits .f32 0x40000000#32)) (Finset.sum_congr rfl fun d _ => ?_)
  rw [h0 p d, h1 q d]

/-- The accumulator's row `p` after the point: what it held plus the arrays' weights over the point's 1024 columns. -/
theorem row_point (a b : (⟨2, ![4096, 256]⟩ : Shape).Idx → EReal)
    (x0 : FVec Ideal S2048x256 .bf16) (x1 : FVec Ideal S1024x256 .bf16) (acc : FVec Ideal S2048x1 .f32)
    (ib jb : ℕ) (hib : ib < 2) (hjb : jb < 4)
    (h0 : ∀ (p : Fin 2048) (d : Fin 256), x0 (ix2 p d) = a (ix2 (⟨2048 * ib + p.val, by omega⟩ : Fin 4096) d))
    (h1 : ∀ (q : Fin 1024) (d : Fin 256), x1 (ix2 q d) = b (ix2 (⟨1024 * jb + q.val, by omega⟩ : Fin 4096) d))
    (p : Fin 2048) :
    k0_pay3 (F := Ideal) x0 x1 acc (ix2 p (0 : Fin 1))
      = acc (ix2 p (0 : Fin 1)) + ∑ q : Fin 1024, wN a b (2048 * ib + p.val) (1024 * jb + q.val) :=
  (rowSums_apply x0 x1 acc p).trans
    (congrArg (acc (ix2 p (0 : Fin 1)) + ·)
      (Finset.sum_congr rfl fun q _ => blockWeight_eq a b x0 x1 ib jb hib hjb h0 h1 p q))

/-- The point's column block at `q`: the arrays' weights of column `1024·jb + q` over the point's 2048 rows. -/
theorem col_point (a b : (⟨2, ![4096, 256]⟩ : Shape).Idx → EReal)
    (x0 : FVec Ideal S2048x256 .bf16) (x1 : FVec Ideal S1024x256 .bf16)
    (ib jb : ℕ) (hib : ib < 2) (hjb : jb < 4)
    (h0 : ∀ (p : Fin 2048) (d : Fin 256), x0 (ix2 p d) = a (ix2 (⟨2048 * ib + p.val, by omega⟩ : Fin 4096) d))
    (h1 : ∀ (q : Fin 1024) (d : Fin 256), x1 (ix2 q d) = b (ix2 (⟨1024 * jb + q.val, by omega⟩ : Fin 4096) d))
    (q : Fin 1024) :
    k0_pay4 (F := Ideal) x0 x1 (ix3 (0 : Fin 1) (0 : Fin 1) q)
      = ∑ p : Fin 2048, wN a b (2048 * ib + p.val) (1024 * jb + q.val) :=
  (colSums_apply x0 x1 q).trans
    (Finset.sum_congr rfl fun p _ => blockWeight_eq a b x0 x1 ib jb hib hjb h0 h1 p q)

/-- Over all 4096 columns the continued weights of row `P` sum to the row's denominator. -/
theorem row_total (a b : (⟨2, ![4096, 256]⟩ : Shape).Idx → EReal) (P : Fin 4096) :
    ∑ x ∈ Finset.range 4096, wN a b P.val x = rowDen a b P := by
  unfold rowDen
  rw [Finset.sum_range]
  exact Finset.sum_congr rfl fun k _ => wN_of_lt a b P.val k.val P.isLt k.isLt

/-- The two row blocks' sums of column `Q` add up to the column's denominator. -/
theorem col_total (a b : (⟨2, ![4096, 256]⟩ : Shape).Idx → EReal) (Q : Fin 4096) :
    (∑ p : Fin 2048, wN a b (2048 * 0 + p.val) Q.val) + (∑ p : Fin 2048, wN a b (2048 * 1 + p.val) Q.val)
      = colDen a b Q := by
  unfold colDen
  refine Eq.trans ?_ (Cert.PartialSums.sum_halves (a := 2048) (fun P : Fin (2048 + 2048) => weight a b P Q)).symm
  refine congrArg₂ (· + ·) (Finset.sum_congr rfl fun p _ => ?_) (Finset.sum_congr rfl fun p _ => ?_)
  · exact (wN_of_lt a b _ _ (by omega) Q.isLt).trans
      (congrArg (fun P => weight a b P Q) (Fin.ext (by show 2048 * 0 + p.val = p.val; omega)))
  · exact (wN_of_lt a b _ _ (by omega) Q.isLt).trans
      (congrArg (fun P => weight a b P Q) (Fin.ext (by show 2048 * 1 + p.val = 2048 + p.val; omega)))

end Cert.ArrayWeights

end
-- ==== Proof.GridSums.lean ====
/-
  The accumulator's closed form, and what the two output arrays end holding.

  Grid point `n` works on row block `n / 4` and column block `n % 4`: its first block is rows `2048·(n/4) …` of the
  first array the region reads, its second block rows `1024·(n%4) …` of the second. By induction on the point, the
  accumulator's row `p` after point `n` is the sum of the arrays' weights of row `2048·(n/4) + p` over the columns
  below `1024·(n%4 + 1)`: a new row block starts from zero, and every later point adds the next 1024 columns. At
  the last column block that is the whole row, which is what is written to the row-sum array; the column-sum
  array receives, per row block, each column's weights summed over the block's 2048 rows.
-/
import proofs.«177707_j64518998721097_2_alg».proof.Proof.Gen.KernelIdeal.Frame
import proofs.«177707_j64518998721097_2_alg».proof.Proof.PointByPoint
import proofs.«177707_j64518998721097_2_alg».proof.Proof.ArrayWeights
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.GridSums

open Cert.KernelIdeal Cert.KernelIdeal.Gen Cert.PointByPoint Cert.ArrayWeights

variable (m : (ℓ : Loc nD τ sig) → Buf (Elt Ideal) ℓ)

/-- The printed index maps, decided once over the eight grid points: the first operand and both outputs move with
    the row block `t / 4`, the second operand and the column output's last axis with the column block `t % 4`. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 3) = t.val / 4 ∧ win0_3.index t (1 : Fin 3) = 0 ∧ win0_3.index t (2 : Fin 3) = t.val % 4 :=
  (by decide +kernel : ∀ t : Fin grid0.N, _)

theorem t_lt (t : Fin cfg0.N) : t.val < 8 := lt_of_lt_of_eq t.isLt N_0

/-- The first array the region reads (the first array of unit rows, as the region finds it). -/
abbrev za (c : Dev nD) : (⟨2, ![4096, 256]⟩ : Shape).Idx → EReal := V m c main_v10
/-- The second array the region reads. -/
abbrev zb (c : Dev nD) : (⟨2, ![4096, 256]⟩ : Shape).Idx → EReal := V m c main_v11

/-- Row `p` of the first block at point `t` is row `2048·(t/4) + p` of the first array. -/
theorem blk0 (c : Dev nD) (t : Fin cfg0.N) (p : Fin 2048) (d : Fin 256) :
    (iblk m c 0 t : FVec Ideal S2048x256 .bf16) (ix2 p d)
      = za m c (ix2 (⟨2048 * (t.val / 4) + p.val, by have := t_lt t; omega⟩ : Fin 4096) d) := by
  obtain ⟨e0, e1, -⟩ := idx_facts t
  show V m c main_v10 (((cfg0.win 0).blk t).view.emb (ix2 p d)) = _
  refine congrArg (V m c main_v10) (funext fun a => Fin.ext ?_)
  match a with
  | ⟨0, _⟩ => show win0_0.index t (0 : Fin 2) * 2048 + 1 * p.val = 2048 * (t.val / 4) + p.val; omega
  | ⟨1, _⟩ => show win0_0.index t (1 : Fin 2) * 256 + 1 * d.val = d.val; omega

/-- Row `q` of the second block at point `t` is row `1024·(t%4) + q` of the second array. -/
theorem blk1 (c : Dev nD) (t : Fin cfg0.N) (q : Fin 1024) (d : Fin 256) :
    (iblk m c 1 t : FVec Ideal S1024x256 .bf16) (ix2 q d)
      = zb m c (ix2 (⟨1024 * (t.val % 4) + q.val, by omega⟩ : Fin 4096) d) := by
  obtain ⟨-, -, e2, e3, -⟩ := idx_facts t
  show V m c main_v11 (((cfg0.win 1).blk t).view.emb (ix2 q d)) = _
  refine congrArg (V m c main_v11) (funext fun a => Fin.ext ?_)
  match a with
  | ⟨0, _⟩ => show win0_1.index t (0 : Fin 2) * 1024 + 1 * q.val = 1024 * (t.val % 4) + q.val; omega
  | ⟨1, _⟩ => show win0_1.index t (1 : Fin 2) * 256 + 1 * d.val = d.val; omega

/-- One step of the accumulation at row `p`: zero at a row block's first column block, otherwise what the point
    before left there, plus the arrays' weights over the point's 1024 columns. -/
theorem acc_point (c : Dev nD) (n : ℕ) (h : n < cfg0.N) (p : Fin 2048) (S : EReal)
    (hS : ¬n % 4 = 0 → (outsAt0 m c (n - 1) (Nat.lt_of_le_of_lt (Nat.sub_le _ _) h)).2.2 (ix2 p (0 : Fin 1)) = S) :
    (outsAt0 m c n h).2.2 (ix2 p (0 : Fin 1))
      = (if n % 4 = 0 then 0 else S)
        + ∑ q : Fin 1024, wN (za m c) (zb m c) (2048 * (n / 4) + p.val) (1024 * (n % 4) + q.val) := by
  have h8 : n < 8 := lt_of_lt_of_eq h N_0
  by_cases h0 : n % 4 = 0
  · rw [if_pos h0]
    refine (congrFun (acc_first m c ⟨n, h⟩ h0) (ix2 p (0 : Fin 1))).trans ?_
    refine (row_point (za m c) (zb m c) (iblk m c 0 ⟨n, h⟩) (iblk m c 1 ⟨n, h⟩) k0_pay1 (n / 4) (n % 4) (by omega) (by omega)
      (blk0 m c ⟨n, h⟩) (blk1 m c ⟨n, h⟩) p).trans ?_
    rw [Cert.PointValues.zeros_apply]
  · rw [if_neg h0]
    refine (congrFun (acc_later m c ⟨n, h⟩ h0) (ix2 p (0 : Fin 1))).trans ?_
    refine (row_point (za m c) (zb m c) (iblk m c 0 ⟨n, h⟩) (iblk m c 1 ⟨n, h⟩)
      (outsAt0 m c (n - 1) (Nat.lt_of_le_of_lt (Nat.sub_le _ _) h)).2.2 (n / 4) (n % 4) (by omega) (by omega)
      (blk0 m c ⟨n, h⟩) (blk1 m c ⟨n, h⟩) p).trans ?_
    rw [hS h0]

/-- THE CLOSED FORM of the accumulation, by induction on the point. -/
theorem acc_closed (c : Dev nD) : ∀ (n : ℕ) (h : n < cfg0.N) (p : Fin 2048),
    (outsAt0 m c n h).2.2 (ix2 p (0 : Fin 1))
      = ∑ x ∈ Finset.range (1024 * (n % 4 + 1)), wN (za m c) (zb m c) (2048 * (n / 4) + p.val) x := by
  intro n
  induction n with
  | zero =>
    intro h p
    refine (acc_point m c 0 h p 0 (fun h0 => absurd rfl h0)).trans ?_
    rw [if_pos rfl, zero_add]
    show _ = ∑ x ∈ Finset.range (0 + 1024), wN (za m c) (zb m c) (2048 * (0 / 4) + p.val) x
    rw [Cert.PartialSums.sum_next, Finset.range_zero, Finset.sum_empty, zero_add]
  | succ n ih =>
    intro h p
    have h8 : n + 1 < 8 := lt_of_lt_of_eq h N_0
    refine (acc_point m c (n + 1) h p _ (fun _ => ih (Nat.lt_of_succ_lt h) p)).trans ?_
    by_cases h0 : (n + 1) % 4 = 0
    · rw [if_pos h0, zero_add, h0]
      show _ = ∑ x ∈ Finset.range (0 + 1024), wN (za m c) (zb m c) (2048 * ((n + 1) / 4) + p.val) x
      rw [Cert.PartialSums.sum_next, Finset.range_zero, Finset.sum_empty, zero_add]
    · rw [if_neg h0]
      have e1 : (n + 1) / 4 = n / 4 := by omega
      have e2 : (n + 1) % 4 = n % 4 + 1 := by omega
      rw [e1, e2, show 1024 * (n % 4 + 1 + 1) = 1024 * (n % 4 + 1) + 1024 from by omega, Cert.PartialSums.sum_next]

/-- The closed form at any index of the accumulator (its second coordinate can only be 0). -/
theorem acc_closed_idx (c : Dev nD) (n : ℕ) (h : n < cfg0.N) (y : S2048x1.Idx) :
    (outsAt0 m c n h).2.2 y
      = ∑ x ∈ Finset.range (1024 * (n % 4 + 1)), wN (za m c) (zb m c) (2048 * (n / 4) + (y 0).val) x := by
  obtain ⟨p, z, rfl⟩ : ∃ (p : Fin 2048) (z : Fin 1), y = ix2 p z := ⟨y 0, y 1, eq_ix2 y⟩
  obtain rfl : z = 0 := Subsingleton.elim _ _
  exact acc_closed m c n h p

/-- A point's column sums at any index of its block (the two leading coordinates can only be 0). -/
theorem col_point_idx (a b : (⟨2, ![4096, 256]⟩ : Shape).Idx → EReal)
    (x0 : FVec Ideal S2048x256 .bf16) (x1 : FVec Ideal S1024x256 .bf16) (ib jb : ℕ) (hib : ib < 2) (hjb : jb < 4)
    (h0 : ∀ (p : Fin 2048) (d : Fin 256), x0 (ix2 p d) = a (ix2 (⟨2048 * ib + p.val, by omega⟩ : Fin 4096) d))
    (h1 : ∀ (q : Fin 1024) (d : Fin 256), x1 (ix2 q d) = b (ix2 (⟨1024 * jb + q.val, by omega⟩ : Fin 4096) d))
    (y : S1x1x1024.Idx) :
    k0_pay4 (F := Ideal) x0 x1 y = ∑ p : Fin 2048, wN a b (2048 * ib + p.val) (1024 * jb + (y 2).val) := by
  obtain ⟨u, v, q, rfl⟩ : ∃ (u : Fin 1) (v : Fin 1) (q : Fin 1024), y = ix3 u v q := ⟨y 0, y 1, y 2, eq_ix3 y⟩
  obtain rfl : u = 0 := Subsingleton.elim _ _
  obtain rfl : v = 0 := Subsingleton.elim _ _
  exact col_point a b x0 x1 ib jb hib hjb h0 h1 q

/-! ## The row-sum array -/

/-- What the row-sum array ends holding: at row `P` the arrays' weights of row `P` over all 4096 columns. -/
def rowsArr (c : Dev nD) : S4096x1.Idx → EReal := fun i =>
  ∑ x ∈ Finset.range 4096, wN (za m c) (zb m c) (i 0).val x

/-- A point that writes the row-sum output back (a last column block) writes its block of that array. -/
theorem flushed_rows (c : Dev nD) (t : Fin cfg0.N) (hf : (cfg0.win 2).flush t = true) :
    (dats m 0 c).flushed 2 t = ((cfg0.win 2).blk t).view.read (Elt Ideal) (rowsArr m c) := by
  have h3 : t.val % 4 = 3 := (flush0_2 t).mp hf
  obtain ⟨-, -, -, -, e4, e5, -⟩ := idx_facts t
  show (cfg0.win 2).cut (grid0.coords t) ((dats m 0 c).after 2 t) = _
  rw [after0_2, rows_last m c t h3]
  funext j
  show (outsAt0 m c t.val t.isLt).2.2 j = rowsArr m c (((cfg0.win 2).blk t).view.emb j)
  refine (acc_closed_idx m c t.val t.isLt j).trans ?_
  show ∑ x ∈ Finset.range (1024 * (t.val % 4 + 1)), wN (za m c) (zb m c) (2048 * (t.val / 4) + (j 0).val) x
    = ∑ x ∈ Finset.range 4096, wN (za m c) (zb m c) (((cfg0.win 2).blk t).view.emb j 0).val x
  have eP : (((cfg0.win 2).blk t).view.emb j 0).val = 2048 * (t.val / 4) + (j 0).val := by
    show win0_2.index t (0 : Fin 2) * 2048 + 1 * (j 0).val = _
    omega
  rw [eP, h3]

/-- Every row block is some last-column-block point's. -/
theorem onto_rows : ∀ q0 : Fin 2, ∃ t : Fin cfg0.N, t.val % 4 = 3 ∧ win0_2.index t = ![q0.val, 0] :=
  (by decide +kernel : ∀ q0 : Fin 2, ∃ t : Fin grid0.N, t.val % 4 = 3 ∧ win0_2.index t = ![q0.val, 0])

/-- An index of the row-sum array is in point `t`'s block iff each coordinate is in the block's range. -/
theorem mem_rows (t : Fin cfg0.N) (i : S4096x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v12_0).slice (win0_2.rect t)).set ↔ _
  rw [View.set_slice_whole, Rect.mem_set_unit]
  exact Iff.rfl

/-- Every row of the row-sum array is written by the last-column-block point of its row block. -/
theorem cover_rows (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  obtain ⟨t, ht3, ht⟩ := onto_rows ⟨(i 0).val / 2048, by omega⟩
  have q0 : win0_2.index t (0 : Fin 2) = (i 0).val / 2048 := congrFun ht 0
  have q1 : win0_2.index t (1 : Fin 2) = 0 := congrFun ht 1
  refine ⟨t, (flush0_2 t).mpr ht3, ?_⟩
  rw [mem_rows]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1 ≤ (i 1).val ∧ (i 1).val < win0_2.index t (1 : Fin 2) * 1 + 1; omega

/-- THE ROW-SUM ARRAY after the run. -/
theorem final_rows (c : Dev nD) : (dats m 0 c).arrAt 2 cfg0.N = rowsArr m c :=
  (dats m 0 c).arrAt_eq_of_cover 2 (rowsArr m c) (fun t hf => flushed_rows m c t hf) cover_rows

/-! ## The column-sum array -/

/-- What the column-sum array ends holding: at `(ib, 0, Q)` the arrays' weights of column `Q` over the 2048 rows of
    row block `ib`. -/
def colsArr (c : Dev nD) : S2x1x4096.Idx → EReal := fun i =>
  ∑ p : Fin 2048, wN (za m c) (zb m c) (2048 * (i 0).val + p.val) (i 2).val

/-- Every point writes its block of that array. -/
theorem flushed_cols (c : Dev nD) (t : Fin cfg0.N) (hf : (cfg0.win 3).flush t = true) :
    (dats m 0 c).flushed 3 t = ((cfg0.win 3).blk t).view.read (Elt Ideal) (colsArr m c) := by
  have h8 := t_lt t
  obtain ⟨-, -, -, -, -, -, e6, e7, e8⟩ := idx_facts t
  show (cfg0.win 3).cut (grid0.coords t) ((dats m 0 c).after 3 t) = _
  rw [after0_3, cols_at m c t]
  funext j
  show k0_pay4 (iblk m c 0 t) (iblk m c 1 t) j = colsArr m c (((cfg0.win 3).blk t).view.emb j)
  refine (col_point_idx (za m c) (zb m c) (iblk m c 0 t) (iblk m c 1 t) (t.val / 4) (t.val % 4) (by omega) (by omega)
    (blk0 m c t) (blk1 m c t) j).trans ?_
  show ∑ p : Fin 2048, wN (za m c) (zb m c) (2048 * (t.val / 4) + p.val) (1024 * (t.val % 4) + (j 2).val)
    = ∑ p : Fin 2048, wN (za m c) (zb m c) (2048 * (((cfg0.win 3).blk t).view.emb j 0).val + p.val) (((cfg0.win 3).blk t).view.emb j 2).val
  have hj0 : (j 0).val < 1 := (j 0).isLt
  have e0 : (((cfg0.win 3).blk t).view.emb j 0).val = t.val / 4 := by
    show win0_3.index t (0 : Fin 3) * 1 + 1 * (j 0).val = _
    omega
  have e2 : (((cfg0.win 3).blk t).view.emb j 2).val = 1024 * (t.val % 4) + (j 2).val := by
    show win0_3.index t (2 : Fin 3) * 1024 + 1 * (j 2).val = _
    omega
  rw [e0, e2]

/-- Every block of the column-sum array is some point's. -/
theorem onto_cols : ∀ (q0 : Fin 2) (q2 : Fin 4), ∃ t : Fin cfg0.N, win0_3.index t = ![q0.val, 0, q2.val] :=
  (by decide +kernel : ∀ (q0 : Fin 2) (q2 : Fin 4), ∃ t : Fin grid0.N, win0_3.index t = ![q0.val, 0, q2.val])

/-- An index of the column-sum array is in point `t`'s block iff each coordinate is in the block's range. -/
theorem mem_cols (t : Fin cfg0.N) (i : S2x1x4096.Idx) :
    i ∈ ((cfg0.win 3).blk t).view.set ↔ ∀ a : Fin 3, win0_3.index t a * S1x1x1024.size a ≤ (i a).val ∧ (i a).val < win0_3.index t a * S1x1x1024.size a + S1x1x1024.size a := by
  show i ∈ ((View.whole main_v12_1).slice (win0_3.rect t)).set ↔ _
  rw [View.set_slice_whole, Rect.mem_set_unit]
  exact Iff.rfl

/-- Every entry of the column-sum array is written by the point of its row block and column block. -/
theorem cover_cols (i : S2x1x4096.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 4096 := (i 2).isLt
  obtain ⟨t, ht⟩ := onto_cols ⟨(i 0).val, hi0⟩ ⟨(i 2).val / 1024, by omega⟩
  have q0 : win0_3.index t (0 : Fin 3) = (i 0).val := congrFun ht 0
  have q1 : win0_3.index t (1 : Fin 3) = 0 := congrFun ht 1
  have q2 : win0_3.index t (2 : Fin 3) = (i 2).val / 1024 := congrFun ht 2
  refine ⟨t, flush0_3 t, ?_⟩
  rw [mem_cols]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1024 ≤ (i 2).val ∧ (i 2).val < win0_3.index t (2 : Fin 3) * 1024 + 1024; omega

/-- THE COLUMN-SUM ARRAY after the run. -/
theorem final_cols (c : Dev nD) : (dats m 0 c).arrAt 3 cfg0.N = colsArr m c :=
  (dats m 0 c).arrAt_eq_of_cover 3 (colsArr m c) (fun t hf => flushed_cols m c t hf) cover_cols

end Cert.GridSums

end
-- ==== Proof.Temperature.lean ====
/-
  The temperature 1/2 enters the two programs in two spellings: the kernel multiplies a similarity by the
  float 2, the reference divides it by the float 1/2. Both floats are exact dyadic rationals, and on the
  extended reals dividing by a nonzero real IS multiplying by its reciprocal at every point, the two
  infinities included, so the two spellings are one function and nothing has to be known about the operand.
-/
import Idealize.ShloMosaic.PureOps.Ideal

noncomputable section

namespace Cert.Temperature

open Idealize.ShloMosaic

/-- The float the kernel multiplies by denotes the real 2. -/
theorem two : Ideal.ofBits .f32 0x40000000#32 = ((2 : ℝ) : EReal) := by
  simp [Ideal.ofBits, Ideal.ieee, -EReal.coe_mul]; norm_num

/-- The float the reference divides by denotes the real 1/2. -/
theorem half : Ideal.ofBits .f32 0x3F000000#32 = ((1 / 2 : ℝ) : EReal) := by
  simp [Ideal.ofBits, Ideal.ieee, -EReal.coe_mul]; norm_num

/-- Dividing by 1/2 is multiplying by 2, for every extended real. -/
theorem div_half (x : EReal) :
    Ideal.div x (Ideal.ofBits .f32 0x3F000000#32) = x * Ideal.ofBits .f32 0x40000000#32 := by
  rw [half, two, Ideal.div_coe (by norm_num : (1 / 2 : ℝ) ≠ 0)]
  norm_num

end Cert.Temperature

end
-- ==== Proof.ReferenceDen.lean ====
/-
  The reference program's vector of denominators, read as row sums and column sums of one weight matrix.

  The reference stacks the two arrays of unit rows, `a` on top of `b`, into one array of 8192 rows, forms all
  8192 × 8192 dot products of its rows, divides each by the temperature 1/2, exponentiates, keeps the entries whose
  row and column lie in different halves (all the others become 0) and sums every row, starting from 0.
  For a row `p` of the upper half the kept entries are the columns `4096 + q`, where the dot product is that of row
  `p` of `a` and row `q` of `b`: the row sum is the sum over `q` of the weights of `(p, q)`. For a row `4096 + q`
  of the lower half the kept entries are the columns `p`, where the dot product is that of row `q` of `b` and row
  `p` of `a`, the same number since multiplication commutes: the row sum is the sum over `p` of the weights of
  `(p, q)`. Only these facts about the extended reals are used: adding 0 changes nothing, a sum of zeros is zero,
  multiplication commutes, and dividing by the float 1/2 is multiplying by the float 2 at every point. The two
  arrays of unit rows are never opened: the statement holds for them as for any two arrays.
-/
import proofs.«177707_j64518998721097_2_alg».proof.Proof.Gen.ReferenceIdeal.Read
import proofs.«177707_j64518998721097_2_alg».proof.Proof.CrossSums
import proofs.«177707_j64518998721097_2_alg».proof.Proof.Temperature

noncomputable section

namespace Cert.ReferenceDen

open Cert.ReferenceIdeal Cert.ReferenceIdeal.Gen Cert.ReferenceIdeal.Read Idealize.ShloMosaic Idealize.ShloMosaic.ValueIdx

/-- The signed compare of a small number against 4096, as words. -/
theorem slt_4096 (n : Nat) (hn : n < 8192) :
    IntOp.cmpi .slt (BitVec.ofNat 32 n) 4096#32 = if n < 4096 then 1#1 else 0#1 := by
  have h1 : (BitVec.ofNat 32 n).toInt = (n : Int) := by
    rw [BitVec.toInt_eq_toNat_of_lt (by rw [BitVec.toNat_ofNat]; omega), BitVec.toNat_ofNat]
    omega
  have h2 : (4096#32 : BitVec 32).toInt = 4096 := by decide
  unfold IntOp.cmpi
  simp only [BitVec.slt, h1, h2]
  by_cases h : n < 4096
  · rw [if_pos h, decide_eq_true (by omega)]; rfl
  · rw [if_neg h, decide_eq_false (by omega)]; rfl

/-- Row `p` of the first operand, read from the concatenation. -/
theorem v10_low (x0 x1 : (⟨S4096x256, .f32⟩ : BufTy).Contents (Elt Ideal)) (j : S8192x256.Idx) (p : Fin 4096) (d : Fin 256)
    (h0 : (j 0).val = p.val) (h1 : (j 1).val = d.val) :
    val_main_v10 (F := Ideal) x0 x1 j = val_main_v4 (F := Ideal) x0 (ix2 p d) := by
  unfold val_main_v10
  refine concatenate_pair_apply_left (s₁ := S4096x256) (s₂ := S4096x256) 0 _ _ _ j rfl (ix2 p d) (fun b => ?_)
  match b with
  | ⟨0, _⟩ => exact h0.symm
  | ⟨1, _⟩ => exact h1.symm

/-- Row `4096 + q` of the concatenation is row `q` of the second operand. -/
theorem v10_high (x0 x1 : (⟨S4096x256, .f32⟩ : BufTy).Contents (Elt Ideal)) (j : S8192x256.Idx) (q : Fin 4096) (d : Fin 256)
    (h0 : (j 0).val = 4096 + q.val) (h1 : (j 1).val = d.val) :
    val_main_v10 (F := Ideal) x0 x1 j = val_main_v9 (F := Ideal) x1 (ix2 q d) := by
  unfold val_main_v10
  refine concatenate_pair_apply_right (s₁ := S4096x256) (s₂ := S4096x256) 0 _ _ _ j rfl rfl (ix2 q d) (fun b hb => ?_) ?_
  · match b with
    | ⟨0, _⟩ => exact absurd rfl hb
    | ⟨1, _⟩ => exact h1.symm
  · show q.val + 4096 = (j 0).val
    omega

/-- A sum over 8192 entries is the sum over the first 4096 plus the sum over the last 4096. -/
theorem sum_split (f : Fin 8192 → EReal) :
    ∑ k : Fin 8192, f k
      = ∑ k : Fin 4096, f ⟨k.val, by omega⟩ + ∑ k : Fin 4096, f ⟨4096 + k.val, by omega⟩ :=
  Fin.sum_univ_add (a := 4096) (b := 4096) f

/-- The first mask operand: is the row index below 4096? -/
theorem v23_eq (i : S8192x8192.Idx) :
    val_main_v23 (F := Ideal) i = if (i 0).val < 4096 then 1#1 else 0#1 := by
  rw [val_main_v23_apply, val_main_v19_apply, val_main_v17_apply, val_main_v18_apply, val_main_v16_apply,
    val_main_c_apply]
  exact slt_4096 (i 0).val (i 0).isLt

/-- The second mask operand: is the column index below 4096? -/
theorem v24_eq (i : S8192x8192.Idx) :
    val_main_v24 (F := Ideal) i = if (i 1).val < 4096 then 1#1 else 0#1 := by
  rw [val_main_v24_apply, val_main_v22_apply, val_main_v20_apply, val_main_v21_apply, val_main_v16_apply,
    val_main_c_2_apply]
  exact slt_4096 (i 1).val (i 1).isLt

/-- The mask is off where row and column lie in the same half. -/
theorem mask_off (i : S8192x8192.Idx) (h : (i 0).val < 4096 ↔ (i 1).val < 4096) :
    val_main_v25 (F := Ideal) i = 0#1 := by
  rw [val_main_v25_apply, v23_eq, v24_eq]
  by_cases h0 : (i 0).val < 4096
  · rw [if_pos h0, if_pos (h.1 h0)]; rfl
  · rw [if_neg h0, if_neg (fun h1 => h0 (h.2 h1))]; rfl

/-- The mask is on where row and column lie in different halves. -/
theorem mask_on (i : S8192x8192.Idx) (h : ¬ ((i 0).val < 4096 ↔ (i 1).val < 4096)) :
    val_main_v25 (F := Ideal) i = 1#1 := by
  rw [val_main_v25_apply, v23_eq, v24_eq]
  by_cases h0 : (i 0).val < 4096
  · have h1 : ¬ (i 1).val < 4096 := fun h1 => h ⟨fun _ => h1, fun _ => h0⟩
    rw [if_pos h0, if_neg h1]; rfl
  · have h1 : (i 1).val < 4096 := by
      by_contra h1
      exact h ⟨fun a => absurd a h0, fun a => absurd a h1⟩
    rw [if_neg h0, if_pos h1]; rfl

/-- A masked-out entry of the weight matrix is zero. -/
theorem v32_off (x0 x1 : (⟨S4096x256, .f32⟩ : BufTy).Contents (Elt Ideal)) (i : S8192x8192.Idx)
    (h : (i 0).val < 4096 ↔ (i 1).val < 4096) :
    val_main_v32 (F := Ideal) x0 x1 i = 0 := by
  rw [val_main_v32_apply, mask_off i h, select_zero, val_main_call2_v1_apply, val_main_call2_v0_apply,
    val_main_cst_5_apply, Ideal.ofBits_def, Ideal.ofBits_zero_f32]

/-- A kept entry of the weight matrix is the exponential of twice the similarity. -/
theorem v32_on (x0 x1 : (⟨S4096x256, .f32⟩ : BufTy).Contents (Elt Ideal)) (i : S8192x8192.Idx)
    (h : ¬ ((i 0).val < 4096 ↔ (i 1).val < 4096)) :
    val_main_v32 (F := Ideal) x0 x1 i
      = Ideal.exp (val_main_v12 (F := Ideal) x0 x1 i * Ideal.ofBits .f32 0x40000000#32) := by
  rw [val_main_v32_apply, mask_on i h, select_one, val_main_v31_apply, val_main_v30_apply, val_main_v29_apply,
    val_main_cst_4_apply, Ideal.hostUnary_exp_def, Ideal.hostDivf_def, Ideal.ofBits_def, Cert.Temperature.div_half]

/-- The similarity matrix in its upper right quadrant: row `p` of the first array against row `q` of the second. -/
theorem v12_low_high (x0 x1 : (⟨S4096x256, .f32⟩ : BufTy).Contents (Elt Ideal)) (i : S8192x8192.Idx) (p q : Fin 4096)
    (h0 : (i 0).val = p.val) (h1 : (i 1).val = 4096 + q.val) :
    val_main_v12 (F := Ideal) x0 x1 i
      = Cert.CrossSums.sim (val_main_v4 (F := Ideal) x0) (val_main_v9 (F := Ideal) x1) p q := by
  rw [val_main_v12_apply]
  unfold Cert.CrossSums.sim
  refine Finset.sum_congr rfl fun k _ => ?_
  rw [val_main_v11_apply, v10_low x0 x1 (lidx_main_v12 i k) p k h0 rfl,
    v10_high x0 x1 (idx_main_v11 (ridx_main_v12 i k)) q k h1 rfl]

/-- The similarity matrix in its lower left quadrant: the same dot product with its factors exchanged. -/
theorem v12_high_low (x0 x1 : (⟨S4096x256, .f32⟩ : BufTy).Contents (Elt Ideal)) (i : S8192x8192.Idx) (p q : Fin 4096)
    (h0 : (i 0).val = 4096 + q.val) (h1 : (i 1).val = p.val) :
    val_main_v12 (F := Ideal) x0 x1 i
      = Cert.CrossSums.sim (val_main_v4 (F := Ideal) x0) (val_main_v9 (F := Ideal) x1) p q := by
  rw [val_main_v12_apply]
  unfold Cert.CrossSums.sim
  refine Finset.sum_congr rfl fun k _ => ?_
  rw [val_main_v11_apply, v10_high x0 x1 (lidx_main_v12 i k) q k h0 rfl,
    v10_low x0 x1 (idx_main_v11 (ridx_main_v12 i k)) p k h1 rfl]
  exact mul_comm _ _

/-- The reference's denominator vector is the vector of row sums followed by the column sums. -/
theorem den_eq (x0 x1 : (⟨S4096x256, .f32⟩ : BufTy).Contents (Elt Ideal)) :
    val_main_v33 (F := Ideal) x0 x1
      = Cert.CrossSums.den (val_main_v4 (F := Ideal) x0) (val_main_v9 (F := Ideal) x1) := by
  funext i
  obtain ⟨r, rfl⟩ : ∃ r : Fin 8192, i = ix1 r := ⟨i 0, eq_ix1 i⟩
  rw [val_main_v33_apply, val_main_cst_6_apply, Ideal.ofBits_def, Ideal.ofBits_zero_f32, zero_add, sum_split]
  by_cases h : r.val < 4096
  · -- a row of the upper half: its left part is masked out, its right part is the row of weights
    rw [Cert.CrossSums.den_low _ _ (ix1 r) ⟨r.val, h⟩ rfl]
    have hz : ∑ k : Fin 4096, val_main_v32 (F := Ideal) x0 x1 (idx_main_v33 (ix1 r) ⟨k.val, by omega⟩) = 0 :=
      Finset.sum_eq_zero fun k _ => v32_off x0 x1 _ ⟨fun _ => k.isLt, fun _ => h⟩
    rw [hz, zero_add]
    unfold Cert.CrossSums.rowDen Cert.CrossSums.weight
    refine Finset.sum_congr rfl fun k _ => ?_
    have hon : ¬ (r.val < 4096 ↔ 4096 + k.val < 4096) := fun e => by have := e.1 h; omega
    rw [v32_on x0 x1 _ hon, v12_low_high x0 x1 _ ⟨r.val, h⟩ k rfl rfl]
  · -- a row of the lower half: its left part is the column of weights, its right part is masked out
    have hr : r.val = 4096 + (r.val - 4096) := by omega
    have hq : r.val - 4096 < 4096 := by omega
    rw [Cert.CrossSums.den_high _ _ (ix1 r) ⟨r.val - 4096, hq⟩ hr]
    have hz : ∑ k : Fin 4096, val_main_v32 (F := Ideal) x0 x1 (idx_main_v33 (ix1 r) ⟨4096 + k.val, by omega⟩) = 0 :=
      Finset.sum_eq_zero fun k _ => v32_off x0 x1 _
        ⟨fun a => absurd a h, fun (a : 4096 + k.val < 4096) => absurd a (by omega)⟩
    rw [hz, add_zero]
    unfold Cert.CrossSums.colDen Cert.CrossSums.weight
    refine Finset.sum_congr rfl fun k _ => ?_
    have hon : ¬ (r.val < 4096 ↔ k.val < 4096) := fun e => h (e.2 k.isLt)
    rw [v32_on x0 x1 _ hon, v12_high_low x0 x1 _ k ⟨r.val - 4096, hq⟩ hr rfl]

end Cert.ReferenceDen

end
-- ==== Proof.LibColumns.lean ====
/-
  Columns of a matrix, read at an index.

  Column `k` of an `[n, m]` array, cut out as an `[n, 1]` array and re-laid as a vector of length `n`, has at `p`
  the array's entry `(p, k)`.  An `[n, 16]` array assembled by joining sixteen `[n, 1]` arrays along the second axis
  has at `(p, q)` the `q`-th of them at `(p, 0)`.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- A one-column matrix re-laid as a vector: entry `p` is entry `(p, 0)`. -/
theorem shapeCast_uncol_apply {n : ℕ} (v : (⟨2, ![n, 1]⟩ : Shape).Idx → α) (h : (⟨2, ![n, 1]⟩ : Shape).ShapeCasts ⟨1, ![n]⟩) (p : Fin n) :
    shapeCast (⟨1, ![n]⟩ : Shape) v h (ix1 p) = v (ix2 p (0 : Fin 1)) := by
  refine shapeCast_apply v h (ix1 p) (ix2 p (0 : Fin 1)) ?_
  rw [Shape.rowMajor_val_two, Shape.rowMajor_val_one]
  show p.val * 1 + 0 = p.val
  omega

/-- Column `k` (at offset `o = k`) of an `[n, m]` array, cut out and re-laid as a vector: entry `p` is the array's `(p, k)`. -/
theorem column_apply {n m : ℕ} (o : ℕ) (k : Fin m) (hk : k.val = o) (X : (⟨2, ![n, m]⟩ : Shape).Idx → α)
    (hs : (⟨2, ![n, m]⟩ : Shape).Slices ![0, o] ⟨2, ![n, 1]⟩) (hc : (⟨2, ![n, 1]⟩ : Shape).ShapeCasts ⟨1, ![n]⟩) (p : Fin n) :
    shapeCast (⟨1, ![n]⟩ : Shape) (extractStridedSlice ⟨2, ![n, 1]⟩ ![0, o] X hs) hc (ix1 p) = X (ix2 p k) := by
  rw [shapeCast_uncol_apply]
  exact slice2_axis1_apply o X hs p (0 : Fin 1) k (by rw [hk]; rfl)

/-- Sixteen `[n, 1]` arrays joined along the second axis: entry `(p, q)` of the result is the `q`-th array at `(p, 0)`. -/
theorem concat16_columns_apply {n : ℕ} (f : Fin 16 → (⟨2, ![n, 1]⟩ : Shape).Idx → α)
    (h : Shape.Concatenates (([⟨⟨2, ![n, 1]⟩, f 0⟩, ⟨⟨2, ![n, 1]⟩, f 1⟩, ⟨⟨2, ![n, 1]⟩, f 2⟩, ⟨⟨2, ![n, 1]⟩, f 3⟩, ⟨⟨2, ![n, 1]⟩, f 4⟩,
      ⟨⟨2, ![n, 1]⟩, f 5⟩, ⟨⟨2, ![n, 1]⟩, f 6⟩, ⟨⟨2, ![n, 1]⟩, f 7⟩, ⟨⟨2, ![n, 1]⟩, f 8⟩, ⟨⟨2, ![n, 1]⟩, f 9⟩, ⟨⟨2, ![n, 1]⟩, f 10⟩,
      ⟨⟨2, ![n, 1]⟩, f 11⟩, ⟨⟨2, ![n, 1]⟩, f 12⟩, ⟨⟨2, ![n, 1]⟩, f 13⟩, ⟨⟨2, ![n, 1]⟩, f 14⟩, ⟨⟨2, ![n, 1]⟩, f 15⟩] :
      List ((s : Shape) × (s.Idx → α))).map (·.1)) ⟨2, ![n, 16]⟩ (1 : Fin 2))
    (p : Fin n) (q : Fin 16) :
    concatenate (⟨2, ![n, 16]⟩ : Shape) (1 : Fin 2) [⟨⟨2, ![n, 1]⟩, f 0⟩, ⟨⟨2, ![n, 1]⟩, f 1⟩, ⟨⟨2, ![n, 1]⟩, f 2⟩, ⟨⟨2, ![n, 1]⟩, f 3⟩,
      ⟨⟨2, ![n, 1]⟩, f 4⟩, ⟨⟨2, ![n, 1]⟩, f 5⟩, ⟨⟨2, ![n, 1]⟩, f 6⟩, ⟨⟨2, ![n, 1]⟩, f 7⟩, ⟨⟨2, ![n, 1]⟩, f 8⟩, ⟨⟨2, ![n, 1]⟩, f 9⟩,
      ⟨⟨2, ![n, 1]⟩, f 10⟩, ⟨⟨2, ![n, 1]⟩, f 11⟩, ⟨⟨2, ![n, 1]⟩, f 12⟩, ⟨⟨2, ![n, 1]⟩, f 13⟩, ⟨⟨2, ![n, 1]⟩, f 14⟩, ⟨⟨2, ![n, 1]⟩, f 15⟩] h (ix2 p q)
      = f q (ix2 p (0 : Fin 1)) :=
  concatenate_ofFn_unit_apply (t := ⟨2, ![n, 16]⟩) (s₁ := ⟨2, ![n, 1]⟩) (1 : Fin 2) f h rfl rfl (ix2 p q) q rfl (ix2 p (0 : Fin 1))
    (fun b hb => by
      match b with
      | ⟨0, _⟩ => rfl
      | ⟨1, _⟩ => exact absurd rfl hb)

end Cert.Layout

end
-- ==== Proof.KernelValue.lean ====
/-
  The kernel program's result, as the reference's.

  Before the region the host normalises the rows of both arguments exactly as the reference does, so the arrays the
  region and the tail read are the reference's two arrays of unit rows (the change to a 16-bit format in front of
  the region is the identity on exact values). After the region the host re-lays the row sums as a vector, adds the
  two row blocks' column sums, and joins the two into the vector of all 8192 denominators: by the region's closed
  forms that vector lists each row's sum of weights and then each column's, which is also what the reference's
  masked sums come to. The remaining tail is the reference's word for word, except that it multiplies the
  similarities of the positive pairs by 2 where the reference divides them by 1/2.
-/
import proofs.«177707_j64518998721097_2_alg».proof.Proof.Gen.KernelIdeal.Frame
import proofs.«177707_j64518998721097_2_alg».proof.Proof.Gen.ReferenceIdeal.Read
import proofs.«177707_j64518998721097_2_alg».proof.Proof.GridSums
import proofs.«177707_j64518998721097_2_alg».proof.Proof.ReferenceDen
import proofs.«177707_j64518998721097_2_alg».proof.Proof.LibColumns
import Idealize.ShloMosaic.Lib.StableHlo.Run
import Idealize.ShloMosaic.Lib.Pipeline.Value
import Idealize.ShloMosaic.Lib.Tactic
import Idealize.ShloMosaic.PureOps.Ideal
import Idealize.ShloMosaic.PureOps.Ideal.Laws

noncomputable section

open Idealize.ShloMosaic Idealize.ShloMosaic.TcCoe Idealize.SL.Sem Idealize.ShloMosaic.StableHlo Idealize.ShloMosaic.ValueIdx

namespace Cert.KernelValue

open Cert.KernelIdeal Cert.KernelIdeal.Gen Cert.GridSums Cert.ArrayWeights

variable (m : (ℓ : Loc nD τ sig) → Buf (Elt Ideal) ℓ) (ρ : Dev nD → PrngReg)

/-! ## The host operations before the region -/

/-- The first array of unit rows the tail reads is the reference's. -/
theorem unit_i (c : Dev nD) :
    (V m c main_v4 : S4096x256.Idx → EReal)
      = Cert.ReferenceIdeal.Read.val_main_v4 (F := Ideal) (m ((c.tc : Thread nD τ).loc main_arg0)) := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- The second array of unit rows the tail reads is the reference's. -/
theorem unit_j (c : Dev nD) :
    (V m c main_v9 : S4096x256.Idx → EReal)
      = Cert.ReferenceIdeal.Read.val_main_v9 (F := Ideal) (m ((c.tc : Thread nD τ).loc main_arg1)) := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- The region's first operand is the same array: the change of format is the identity on exact values. -/
theorem operand_i (c : Dev nD) :
    za m c = Cert.ReferenceIdeal.Read.val_main_v4 (F := Ideal) (m ((c.tc : Thread nD τ).loc main_arg0)) := by
  show (V m c main_v10 : S4096x256.Idx → EReal) = _
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- The region's second operand likewise. -/
theorem operand_j (c : Dev nD) :
    zb m c = Cert.ReferenceIdeal.Read.val_main_v9 (F := Ideal) (m ((c.tc : Thread nD τ).loc main_arg1)) := by
  show (V m c main_v11 : S4096x256.Idx → EReal) = _
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-! ## The denominators the tail forms from the region's two arrays -/

/-- Putting row block `k` back in front of column `q` of the re-laid column sums gives the entry `(k, q)`. -/
theorem lift_block (hR : S2x4096.Reduces [0] S4096) (q : Fin 4096) (k : Fin (S2x4096.size 0)) :
    hR.lift (ix1 q) k = ix2 (⟨k.val, k.isLt⟩ : Fin 2) q := by
  funext a; apply Fin.ext
  fin_cases a <;> rfl

/-- The column sums of the two row blocks, re-laid and added from zero, are the column's denominator. -/
theorem cols_read (a b : (⟨2, ![4096, 256]⟩ : Shape).Idx → EReal) (q : Fin 4096) :
    Host.reduceAdd (F := Ideal)
        (shapeCast S2x4096 (fun i : S2x1x4096.Idx => ∑ p : Fin 2048, wN a b (2048 * (i 0).val + p.val) (i 2).val)
          shapeCasts_S2x1x4096_S2x4096)
        (constant (F := Ideal) S_ .f32 0x00000000#32) reducesTo_S2x4096_S4096_d0 h_S_ (ix1 q)
      = Cert.CrossSums.colDen a b q := by
  have hR : S2x4096.Reduces [0] S4096 := by decide
  simp only [Host.reduceAdd, Ideal.hostReduceAdd_def]
  rw [Ideal.hostReduceAdd_single reducesTo_S2x4096_S4096_d0 hR]
  show Ideal.ofBits .f32 0x00000000#32 + ∑ k : Fin 2,
      shapeCast S2x4096 (fun i : S2x1x4096.Idx => ∑ p : Fin 2048, wN a b (2048 * (i 0).val + p.val) (i 2).val)
        shapeCasts_S2x1x4096_S2x4096 (hR.lift (ix1 q) k) = _
  rw [Ideal.ofBits_zero_f32, zero_add, Fin.sum_univ_two]
  have e : ∀ k : Fin 2,
      shapeCast S2x4096 (fun i : S2x1x4096.Idx => ∑ p : Fin 2048, wN a b (2048 * (i 0).val + p.val) (i 2).val)
        shapeCasts_S2x1x4096_S2x4096 (hR.lift (ix1 q) k) = ∑ p : Fin 2048, wN a b (2048 * k.val + p.val) q.val := by
    intro k
    rw [lift_block hR q k]
    refine shapeCast_apply _ shapeCasts_S2x1x4096_S2x4096 (ix2 (⟨k.val, k.isLt⟩ : Fin 2) q) (ix3 (⟨k.val, k.isLt⟩ : Fin 2) (0 : Fin 1) q) ?_
    rw [Shape.rowMajor_val_three, Shape.rowMajor_val_two]
    show (k.val * 1 + 0) * 4096 + q.val = k.val * 4096 + q.val
    omega
  rw [e 0, e 1]
  exact col_total a b q

/-- The vector the tail joins — the re-laid row sums, then the added column sums — is the vector of denominators. -/
theorem joined_den (a b : (⟨2, ![4096, 256]⟩ : Shape).Idx → EReal) :
    concatenate S8192 0
        [⟨S4096, shapeCast S4096 (fun i : S4096x1.Idx => ∑ x ∈ Finset.range 4096, wN a b (i 0).val x) shapeCasts_S4096x1_S4096⟩,
          ⟨S4096, Host.reduceAdd (F := Ideal)
            (shapeCast S2x4096 (fun i : S2x1x4096.Idx => ∑ p : Fin 2048, wN a b (2048 * (i 0).val + p.val) (i 2).val)
              shapeCasts_S2x1x4096_S2x4096)
            (constant (F := Ideal) S_ .f32 0x00000000#32) reducesTo_S2x4096_S4096_d0 h_S_⟩]
        concatenates_S4096_S4096_S8192_d0
      = Cert.CrossSums.den a b := by
  funext i
  obtain ⟨r, rfl⟩ : ∃ r : Fin 8192, i = ix1 r := ⟨i 0, eq_ix1 i⟩
  by_cases h : r.val < 4096
  · rw [Cert.CrossSums.den_low a b (ix1 r) ⟨r.val, h⟩ rfl]
    refine (concatenate_pair_apply_left (s₁ := S4096) (s₂ := S4096) 0 _ _ _ (ix1 r) rfl (ix1 (⟨r.val, h⟩ : Fin 4096))
      (fun b => by match b with | ⟨0, _⟩ => rfl)).trans ?_
    refine (Cert.Layout.shapeCast_uncol_apply _ shapeCasts_S4096x1_S4096 (⟨r.val, h⟩ : Fin 4096)).trans ?_
    exact row_total a b ⟨r.val, h⟩
  · have hq : r.val - 4096 < 4096 := by omega
    have hr : r.val = 4096 + (r.val - 4096) := by omega
    rw [Cert.CrossSums.den_high a b (ix1 r) ⟨r.val - 4096, hq⟩ hr]
    refine (concatenate_pair_apply_right (s₁ := S4096) (s₂ := S4096) 0 _ _ _ (ix1 r) rfl rfl (ix1 (⟨r.val - 4096, hq⟩ : Fin 4096))
      (fun b hb => (hb (Fin.ext (by
        have hb1 : b.val < 1 := b.isLt
        show b.val = 0
        omega))).elim) ?_).trans ?_
    · show r.val - 4096 + 4096 = r.val
      omega
    exact cols_read a b ⟨r.val - 4096, hq⟩

/-! ## The shared tail -/

/-- From the scaled similarities of the positive pairs and the denominators to the loss: the mean over all 8192
    entries of `-log (exp u / (den / 2))`. Both programs end with these operations. -/
def lossOf (u den : FVec Ideal S8192 .f32) : FVec Ideal S_ .f32 :=
  Host.divf (F := Ideal)
    (Host.reduceAdd (F := Ideal)
      (Host.negf (F := Ideal) (Host.log (F := Ideal) (Host.divf (F := Ideal) (Host.exp (F := Ideal) u)
        (mulf (broadcastInDim S8192 ![] bcast_S_S8192 (constant (F := Ideal) S_ .f32 0x3F000000#32)) den))))
      (constant (F := Ideal) S_ .f32 0x00000000#32) reducesTo_S8192_S_d0 h_S_)
    (constant (F := Ideal) S_ .f32 0x46000000#32)

/-- The reference's result is the shared tail of its own two vectors. -/
theorem ref_loss (x0 x1 : FVec Ideal S4096x256 .f32) :
    Cert.ReferenceIdeal.Read.val_main_v40 (F := Ideal) x0 x1
      = lossOf (Cert.ReferenceIdeal.Read.val_main_v27 (F := Ideal) x0 x1) (Cert.ReferenceIdeal.Read.val_main_v33 (F := Ideal) x0 x1) := rfl

/-- Multiplying the positive pairs' similarities by 2 is dividing them by 1/2. -/
theorem scaled_eq (x0 x1 : FVec Ideal S4096x256 .f32) :
    mulf (Cert.ReferenceIdeal.Read.val_main_v15 (F := Ideal) x0 x1)
        (broadcastInDim S8192 ![] bcast_S_S8192 (constant (F := Ideal) S_ .f32 0x40000000#32))
      = Cert.ReferenceIdeal.Read.val_main_v27 (F := Ideal) x0 x1 := by
  funext i
  show Cert.ReferenceIdeal.Read.val_main_v15 (F := Ideal) x0 x1 i * Ideal.ofBits .f32 0x40000000#32
    = Ideal.div (Cert.ReferenceIdeal.Read.val_main_v15 (F := Ideal) x0 x1 i) (Ideal.ofBits .f32 0x3F000000#32)
  exact (Cert.Temperature.div_half _).symm

/-! ## What the tail reads, and the result -/

/-- The tail reads the first array of unit rows as the host prefix left it (no window writes it). -/
theorem tail_unit_i (c : Dev nD) :
    (Pipeline.withArrays (cfgs 0).spec c (V0 m c) (fun w => (dats m 0 c).arrAt w (cfgs 0).N) (Proc.tc.devRef main_v4) : S4096x256.Idx → EReal)
      = Cert.ReferenceIdeal.Read.val_main_v4 (F := Ideal) (m ((c.tc : Thread nD τ).loc main_arg0)) :=
  (Pipeline.withArrays_of_ne _ c (V0 m c) _ main_v4 (by exact (by decide : ∀ w, Pipeline.arrRef spec0 w ≠ main_v4))).trans (unit_i m c)

/-- The second likewise. -/
theorem tail_unit_j (c : Dev nD) :
    (Pipeline.withArrays (cfgs 0).spec c (V0 m c) (fun w => (dats m 0 c).arrAt w (cfgs 0).N) (Proc.tc.devRef main_v9) : S4096x256.Idx → EReal)
      = Cert.ReferenceIdeal.Read.val_main_v9 (F := Ideal) (m ((c.tc : Thread nD τ).loc main_arg1)) :=
  (Pipeline.withArrays_of_ne _ c (V0 m c) _ main_v9 (by exact (by decide : ∀ w, Pipeline.arrRef spec0 w ≠ main_v9))).trans (unit_j m c)

/-- The tail reads the row-sum array as the region left it. -/
theorem tail_rows (c : Dev nD) :
    (Pipeline.withArrays (cfgs 0).spec c (V0 m c) (fun w => (dats m 0 c).arrAt w (cfgs 0).N) (Proc.tc.devRef main_v12_0) : S4096x1.Idx → EReal)
      = rowsArr m c :=
  (Pipeline.withArrays_arr spec0 launch0.win.arr_inj c _ _ 2).trans (final_rows m c)

/-- And the column-sum array. -/
theorem tail_cols (c : Dev nD) :
    (Pipeline.withArrays (cfgs 0).spec c (V0 m c) (fun w => (dats m 0 c).arrAt w (cfgs 0).N) (Proc.tc.devRef main_v12_1) : S2x1x4096.Idx → EReal)
      = colsArr m c :=
  (Pipeline.withArrays_arr spec0 launch0.win.arr_inj c _ _ 3).trans (final_cols m c)

/-- THE RESULT the host operations after the region compute is the reference's result of the same arguments. -/
theorem tail_eq (c : Dev nD) :
    Pipeline.afterTail₀ cfgs (dats m) 0 (V0 m) [hostOps1] c main_v29
      = Cert.ReferenceIdeal.Read.val_main_v40 (F := Ideal) (m ((c.tc : Thread nD τ).loc main_arg0)) (m ((c.tc : Thread nD τ).loc main_arg1)) := by
  unfold Pipeline.afterTail₀
  show StableHlo.after hostOps1 _ (Proc.devRef .tc main_v29) = _
  after_results
  rw [tail_unit_i m c, tail_unit_j m c, tail_rows m c, tail_cols m c, ref_loss]
  refine congrArg₂ lossOf ?_ ?_
  · exact scaled_eq _ _
  · exact (joined_den (za m c) (zb m c)).trans
      ((congrArg₂ Cert.CrossSums.den (operand_i m c) (operand_j m c)).trans (Cert.ReferenceDen.den_eq _ _).symm)

/-- The kernel program's run, read: its result at the reference's term of the launch arguments, the arguments unchanged. -/
theorem run : θ_run defs (onTc (τ := τ) (main (F := Ideal))) ⟨m, fun _ => 0, ρ⟩ fun r => ∀ c : Dev nD,
      r.2.mem ((c.tc : Thread nD τ).loc main_v29)
        = Cert.ReferenceIdeal.Read.val_main_v40 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v29 (Pipeline.mem_restRefs_of main_v29 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelValue

end
-- ==== Proof.lean ====
/-
  The contrastive loss of two batches of 4096 embeddings, computed two ways, is one number.

  Both programs scale every row of the two [4096, 256] arguments to unit length, take for each `p` the similarity
  (dot product) of row `p` of the first array with row `p` of the second, and return the mean over 8192 entries of
  `-log (exp (positive over the temperature) / (denominator / 2))`, the temperature being 1/2. They differ in how the
  8192 denominators come about. The reference stacks the two arrays, forms all 8192 × 8192 similarities,
  exponentiates them over the temperature, sets to zero the pairs of rows from the same array, and sums every row.
  The kernel forms only the 4096 × 4096 weights of rows of the first array against rows of the second, block by block
  on a grid of two row blocks by four column blocks: it accumulates each row's sum across the four column blocks, and
  writes for each row block every column's sum, which the host then adds. Over the extended reals both come to the
  same vector (Proof/CrossSums.lean): for an entry of the first array the sum of the weights along its row, for an
  entry of the second the sum of the weights along its column.

  Only these facts about the extended reals are used: addition and multiplication are commutative and associative,
  adding zero changes nothing, and dividing by the float 1/2 is multiplying by the float 2 at every point, the
  infinities included (Proof/Temperature.lean). So the precondition on the inputs is never opened.

  The modules: Temperature and CrossSums (the two spellings of the temperature; the specification); PointValues,
  CaseValues, PointByPoint (one grid point: its stored values at an index, what each control case leaves behind,
  which case each point is); LibPartialSums, ArrayWeights, GridSums (the accumulation in closed form, by induction on
  the grid point, and the two arrays the region ends with); ReferenceDen (the reference's denominators); KernelValue
  (the host operations before and after the region, and the kernel program's result). The three frame claims are
  the generated frames; the reference's run and its stages are the generated ones.
-/
import proofs.«177707_j64518998721097_2_alg».proof.Defs
import proofs.«177707_j64518998721097_2_alg».proof.Proof.Gen.Kernel
import proofs.«177707_j64518998721097_2_alg».proof.Proof.Gen.Kernel.Skeleton
import proofs.«177707_j64518998721097_2_alg».proof.Proof.Gen.Kernel.Launch
import proofs.«177707_j64518998721097_2_alg».proof.Proof.Gen.Kernel.Points
import proofs.«177707_j64518998721097_2_alg».proof.Proof.Gen.Kernel.Frame
import proofs.«177707_j64518998721097_2_alg».proof.Proof.Gen.KernelIdeal
import proofs.«177707_j64518998721097_2_alg».proof.Proof.Gen.KernelIdeal.Skeleton
import proofs.«177707_j64518998721097_2_alg».proof.Proof.Gen.KernelIdeal.Launch
import proofs.«177707_j64518998721097_2_alg».proof.Proof.Gen.KernelIdeal.Points
import proofs.«177707_j64518998721097_2_alg».proof.Proof.Gen.KernelIdeal.Frame
import proofs.«177707_j64518998721097_2_alg».proof.Proof.Gen.ReferenceIdeal
import proofs.«177707_j64518998721097_2_alg».proof.Proof.Gen.ReferenceIdeal.Run
import proofs.«177707_j64518998721097_2_alg».proof.Proof.Gen.ReferenceIdeal.Read
import proofs.«177707_j64518998721097_2_alg».proof.Proof.Gen.Pre_finite_inputs
import Idealize.ShloMosaic.Adequacy
import Idealize.ShloMosaic.Init
import proofs.«177707_j64518998721097_2_alg».proof.Proof.KernelValue

noncomputable section

namespace Cert.Proof

open Idealize.ShloMosaic Idealize.SL.Sem

/-- The kernel program as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to restate. -/
theorem preserves : Cert.preserves_Kernel_KernelIdeal := trivial

/-- From arguments that agree, both programs end at the reference's term of the kernel program's arguments: the
    kernel program by the value of its run, the reference by its run and the agreement. -/
theorem algebraic : Cert.algebraic_KernelIdeal_ReferenceIdeal := by
  intro m ρ m' ρ' _ hagree
  refine ⟨fun c => Cert.ReferenceIdeal.Read.val_main_v40 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
